-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S256x4096 : Shape := ⟨2, ![256, 4096]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x4096x4096 .f32) (main_arg1 : FVec F S256x4096 .f32) (main_arg2 : FVec F S256 .f32) (main_arg3 : FVec F S64x256 .f32) (main_arg4 : FVec F S64 .f32) (main_arg5 : FVec F S64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_v13 main_v16
-- ==== Kernel.lean ====
abbrev S4x4096x4096 : Shape := ⟨3, ![4, 4096, 4096]⟩
abbrev S256x4096 : Shape := ⟨2, ![256, 4096]⟩
abbrev S256 : Shape := ⟨1, ![256]⟩
abbrev S64x256 : Shape := ⟨2, ![64, 256]⟩
abbrev S64 : Shape := ⟨1, ![64]⟩
abbrev S16384x4096 : Shape := ⟨2, ![16384, 4096]⟩
abbrev S4096x256 : Shape := ⟨2, ![4096, 256]⟩
abbrev S256x64 : Shape := ⟨2, ![256, 64]⟩
abbrev S1x256 : Shape := ⟨2, ![1, 256]⟩
abbrev S1x64 : Shape := ⟨2, ![1, 64]⟩
abbrev S16384x64 : Shape := ⟨2, ![16384, 64]⟩
abbrev S1024x4096 : Shape := ⟨2, ![1024, 4096]⟩
abbrev S1024x64 : Shape := ⟨2, ![1024, 64]⟩
abbrev S1024x256 : Shape := ⟨2, ![1024, 256]⟩
abbrev S4x4096x64 : Shape := ⟨3, ![4, 4096, 64]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S256x4096, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S64, .f32⟩
  | .hbm, ⟨6, _⟩ => ⟨S16384x4096, .f32⟩
  | .hbm, ⟨7, _⟩ => ⟨S4096x256, .f32⟩
  | .hbm, ⟨8, _⟩ => ⟨S4096x256, .bf16⟩
  | .hbm, ⟨9, _⟩ => ⟨S256x64, .f32⟩
  | .hbm, ⟨10, _⟩ => ⟨S256x64, .bf16⟩
  | .hbm, ⟨11, _⟩ => ⟨S1x256, .f32⟩
  | .hbm, ⟨12, _⟩ => ⟨S64, .f32⟩
  | .hbm, ⟨13, _⟩ => ⟨S1x64, .f32⟩
  | .hbm, ⟨14, _⟩ => ⟨S16384x64, .f32⟩
  | .hbm, ⟨15, _⟩ => ⟨S4x4096x64, .f32⟩
  | .local _ .vmem, ⟨0, _⟩ => ⟨S1024x4096, .f32⟩
  | .local _ .vmem, ⟨1, _⟩ => ⟨S1024x4096, .f32⟩
  | .local _ .vmem, ⟨2, _⟩ => ⟨S4096x256, .bf16⟩
  | .local _ .vmem, ⟨3, _⟩ => ⟨S1x256, .f32⟩
  | .local _ .vmem, ⟨4, _⟩ => ⟨S256x64, .bf16⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x4096_S16384x4096 : S4x4096x4096.ShapeCasts S16384x4096
  transposes_S256x4096_S4096x256_1_0 : S256x4096.Transposes [1, 0] S4096x256
  bitsLt_bf16_f32 : FTy.bits .bf16 < FTy.bits .f32
  transposes_S64x256_S256x64_1_0 : S64x256.Transposes [1, 0] S256x64
  shapeCasts_S256_S1x256 : S256.ShapeCasts S1x256
  shapeCasts_S64_S1x64 : S64.ShapeCasts S1x64
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S16384x64_S4x4096x64 : S16384x64.ShapeCasts S4x4096x64
  dot_S1024x4096_S4096x256_S1024x256_1_0_0_1_n_n_wf : DotDims.WF S1024x4096 S4096x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .f32 = 32 ∨ (Rect.block (s := S16384x64) S1024x64.size (cc0_transform_5 i) (hinb0_5 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S256x4096 : Shape := ⟨2, ![256, 4096]⟩
abbrev S256 : Shape := ⟨1, ![256]⟩
abbrev S64x256 : Shape := ⟨2, ![64, 256]⟩
abbrev S64 : Shape := ⟨1, ![64]⟩
abbrev S16384x4096 : Shape := ⟨2, ![16384, 4096]⟩
abbrev S4096x256 : Shape := ⟨2, ![4096, 256]⟩
abbrev S16384x256 : Shape := ⟨2, ![16384, 256]⟩
abbrev S1x256 : Shape := ⟨2, ![1, 256]⟩
abbrev S_ : Shape := ⟨0, ![]⟩
abbrev S256x64 : Shape := ⟨2, ![256, 64]⟩
abbrev S16384x64 : Shape := ⟨2, ![16384, 64]⟩
abbrev S1x64 : Shape := ⟨2, ![1, 64]⟩
abbrev S4x4096x64 : Shape := ⟨3, ![4, 4096, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S256x4096, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S64, .f32⟩
  | .hbm, ⟨6, _⟩ => ⟨S16384x4096, .f32⟩
  | .hbm, ⟨7, _⟩ => ⟨S4096x256, .f32⟩
  | .hbm, ⟨8, _⟩ => ⟨S16384x256, .f32⟩
  | .hbm, ⟨9, _⟩ => ⟨S1x256, .f32⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S16384x256, .f32⟩
  | .hbm, ⟨14, _⟩ => ⟨S16384x256, .f32⟩
  | .hbm, ⟨15, _⟩ => ⟨S256x64, .f32⟩
  | .hbm, ⟨16, _⟩ => ⟨S16384x64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S4x4096x4096_S16384x4096 : S4x4096x4096.ShapeCasts S16384x4096
  transposes_S256x4096_S4096x256_1_0 : S256x4096.Transposes [1, 0] S4096x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S4x4096x64 : S16384x64.ShapeCasts S4x4096x64
  dot_S16384x4096_S4096x256_S16384x256_1_0_0_1_n_n_wf : DotDims.WF S16384x4096 S4096x256 S16384x256 [1] [0] [0] [1] [] []
  dot_S16384x256_S256x64_S16384x64_1_0_0_1_n_n_wf : DotDims.WF S16384x256 S256x64 S16384x64 [1] [0] [0] [1] [] []

variable [Facts₀]

def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf

class Facts : Prop extends Facts₀ where

variable [Facts]
-- ==== Proof.Spec.lean ====
/-
  The router's logits as one function of its arrays, entry by entry.

  A token row r of the activations X [16384, 4096] is sent through a two-layer perceptron with weights already laid out
  input-major — A [4096, 256] for the first layer and B [256, 64] for the second:

      hidden r h = max (Σ_j X[r, j] · A[j, h] + b1[h]) 0          (256 hidden units, rectified)
      logit  r e = Σ_h hidden r h · B[h, e] + (b2[e] + eb[e])      (64 experts, both biases added)

  Everything is read on the extended reals, where + and · are the exact ones and the rectifier's zero is the float word
  0x00000000 left as it is printed (both programs spell the same word, so its value is never needed).
-/
import Idealize.ShloMosaic.PureOps.Ideal
import Idealize.ShloMosaic.Lib.ValueIdx

noncomputable section

open scoped BigOperators

namespace Cert.Router

open Idealize.ShloMosaic Idealize.ShloMosaic.ValueIdx

/-- One rectified hidden unit of one token: the row of X against column h of A, plus the unit's bias, cut off below at zero. -/
def hidden (X : (⟨2, ![16384, 4096]⟩ : Shape).Idx → EReal) (A : (⟨2, ![4096, 256]⟩ : Shape).Idx → EReal)
    (b1 : (⟨1, ![256]⟩ : Shape).Idx → EReal) (r : Fin 16384) (h : Fin 256) : EReal :=
  max ((∑ j : Fin 4096, X (ix2 r j) * A (ix2 j h)) + b1 (ix1 h)) (Ideal.ofBits .f32 0x00000000#32)

/-- The two second-layer biases of expert e, added. -/
def biasSum (b2 eb : (⟨1, ![64]⟩ : Shape).Idx → EReal) (e : Fin 64) : EReal := b2 (ix1 e) + eb (ix1 e)

/-- One expert's logit of one token: the token's hidden units against column e of B, plus the sum of the two biases. -/
def logit (X : (⟨2, ![16384, 4096]⟩ : Shape).Idx → EReal) (A : (⟨2, ![4096, 256]⟩ : Shape).Idx → EReal)
    (b1 : (⟨1, ![256]⟩ : Shape).Idx → EReal) (B : (⟨2, ![256, 64]⟩ : Shape).Idx → EReal)
    (b2 eb : (⟨1, ![64]⟩ : Shape).Idx → EReal) (r : Fin 16384) (e : Fin 64) : EReal :=
  (∑ h : Fin 256, hidden X A b1 r h * B (ix2 h e)) + biasSum b2 eb e

/-- The whole [16384, 64] array of logits. -/
def logits (X : (⟨2, ![16384, 4096]⟩ : Shape).Idx → EReal) (A : (⟨2, ![4096, 256]⟩ : Shape).Idx → EReal)
    (b1 : (⟨1, ![256]⟩ : Shape).Idx → EReal) (B : (⟨2, ![256, 64]⟩ : Shape).Idx → EReal)
    (b2 eb : (⟨1, ![64]⟩ : Shape).Idx → EReal) : (⟨2, ![16384, 64]⟩ : Shape).Idx → EReal :=
  fun i => logit X A b1 B b2 eb (i 0) (i 1)

theorem logits_ix2 (X : (⟨2, ![16384, 4096]⟩ : Shape).Idx → EReal) (A : (⟨2, ![4096, 256]⟩ : Shape).Idx → EReal)
    (b1 : (⟨1, ![256]⟩ : Shape).Idx → EReal) (B : (⟨2, ![256, 64]⟩ : Shape).Idx → EReal)
    (b2 eb : (⟨1, ![64]⟩ : Shape).Idx → EReal) (r : Fin 16384) (e : Fin 64) :
    logits X A b1 B b2 eb (ix2 r e) = logit X A b1 B b2 eb r e := rfl

end Cert.Router

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.Body.lean ====
/-
  What the kernel body stores, entry by entry.

  At one grid point the body holds a block x0 of 1024 token rows, the whole first-layer weights x1 [4096, 256] with their
  bias row x2 [1, 256], and the whole second-layer weights x3 [256, 64] with their bias row x4 [1, 64]. It multiplies the
  rows by x1 on the matrix unit from a zero accumulator, adds the bias row to every token row, rectifies, multiplies by x3
  from a zero accumulator and adds the second bias row. On the extended reals the two narrowings to bfloat16 and the
  same-shape casts change nothing, a product from the zero splat is the plain sum over the contracted axis, and a row
  broadcast over the 1024 token rows reads the one row. So entry (p, e) of the stored block is

      Σ_h max (Σ_j x0[p, j] · x1[j, h] + x2[0, h]) 0 · x3[h, e] + x4[0, e].
-/
import proofs.«131839_g21182778703903_cont_8to1_173_26_alg».proof.Proof.Gen.KernelIdeal.Skeleton
import proofs.«131839_g21182778703903_cont_8to1_173_26_alg».proof.Proof.LibDotInner
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## Which operand coordinate is which, for the two products

Both contract the last axis of the left operand with the first axis of the right one: the left operand's row is the
result's row, the right operand's column the result's column, and the remaining coordinate of each is the contraction's. -/

theorem first_l0 (j : S1024x256.Idx) (q : dot_S1024x4096_S4096x256_S1024x256_1_0_0_1_n_n.contr.Idx) : (dot_S1024x4096_S4096x256_S1024x256_1_0_0_1_n_n.lhsIdx j q 0).val = (j 0).val := by
  unfold DotDims.lhsIdx
  rw [dif_neg (show ¬(0 : Fin S1024x4096.rank) ∈ dot_S1024x4096_S4096x256_S1024x256_1_0_0_1_n_n.lhsBatch by decide),
    dif_pos (show (0 : Fin S1024x4096.rank) ∈ dot_S1024x4096_S4096x256_S1024x256_1_0_0_1_n_n.lhsNonContracting by decide)]
  rfl
theorem first_l1 (j : S1024x256.Idx) (q : dot_S1024x4096_S4096x256_S1024x256_1_0_0_1_n_n.contr.Idx) : (dot_S1024x4096_S4096x256_S1024x256_1_0_0_1_n_n.lhsIdx j q 1).val = (q ⟨0, by decide⟩).val :=
  dot_S1024x4096_S4096x256_S1024x256_1_0_0_1_n_n.lhsIdx_val_of_single rfl j q
theorem first_r0 (j : S1024x256.Idx) (q : dot_S1024x4096_S4096x256_S1024x256_1_0_0_1_n_n.contr.Idx) : (dot_S1024x4096_S4096x256_S1024x256_1_0_0_1_n_n.rhsIdx j q 0).val = (q ⟨0, by decide⟩).val :=
  dot_S1024x4096_S4096x256_S1024x256_1_0_0_1_n_n.rhsIdx_val_of_single rfl j q
theorem first_r1 (j : S1024x256.Idx) (q : dot_S1024x4096_S4096x256_S1024x256_1_0_0_1_n_n.contr.Idx) : (dot_S1024x4096_S4096x256_S1024x256_1_0_0_1_n_n.rhsIdx j q 1).val = (j 1).val := by
  unfold DotDims.rhsIdx
  rw [dif_neg (show ¬(1 : Fin S4096x256.rank) ∈ dot_S1024x4096_S4096x256_S1024x256_1_0_0_1_n_n.rhsBatch by decide),
    dif_pos (show (1 : Fin S4096x256.rank) ∈ dot_S1024x4096_S4096x256_S1024x256_1_0_0_1_n_n.rhsNonContracting by decide)]
  rfl

theorem second_l0 (j : S1024x64.Idx) (q : dot_S1024x256_S256x64_S1024x64_1_0_0_1_n_n.contr.Idx) : (dot_S1024x256_S256x64_S1024x64_1_0_0_1_n_n.lhsIdx j q 0).val = (j 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem second_l1 (j : S1024x64.Idx) (q : dot_S1024x256_S256x64_S1024x64_1_0_0_1_n_n.contr.Idx) : (dot_S1024x256_S256x64_S1024x64_1_0_0_1_n_n.lhsIdx j q 1).val = (q ⟨0, by decide⟩).val :=
  dot_S1024x256_S256x64_S1024x64_1_0_0_1_n_n.lhsIdx_val_of_single rfl j q
theorem second_r0 (j : S1024x64.Idx) (q : dot_S1024x256_S256x64_S1024x64_1_0_0_1_n_n.contr.Idx) : (dot_S1024x256_S256x64_S1024x64_1_0_0_1_n_n.rhsIdx j q 0).val = (q ⟨0, by decide⟩).val :=
  dot_S1024x256_S256x64_S1024x64_1_0_0_1_n_n.rhsIdx_val_of_single rfl j q
theorem second_r1 (j : S1024x64.Idx) (q : dot_S1024x256_S256x64_S1024x64_1_0_0_1_n_n.contr.Idx) : (dot_S1024x256_S256x64_S1024x64_1_0_0_1_n_n.rhsIdx j q 1).val = (j 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-! ## The stored block at an entry -/

/-- Entry (p, e) of what the body stores: the token row p through both layers, read off the five loaded blocks. -/
theorem payload_apply (x0 : Vec Ideal S1024x4096 .f32) (x1 : Vec Ideal S4096x256 .bf16) (x2 : Vec Ideal S1x256 .f32)
    (x3 : Vec Ideal S256x64 .bf16) (x4 : Vec Ideal S1x64 .f32) (p : Fin 1024) (e : Fin 64) :
    k0_pay1 (F := Ideal) x0 x1 x2 x3 x4 (ix2 p e)
      = (∑ h : Fin 256, max ((∑ j : Fin 4096, x0 (ix2 p j) * x1 (ix2 j h)) + x2 (ix2 (0 : Fin 1) h))
            (Ideal.ofBits .f32 0x00000000#32) * x3 (ix2 h e)) + x4 (ix2 (0 : Fin 1) e) := by
  unfold k0_pay1
  simp only [matmul, shapeCast_self]
  rw [addf_apply, broadcastTo_1b_ab_apply,
    DotInner.matmul_zero_apply dot_S1024x256_S256x64_S1024x64_1_0_0_1_n_n rfl rfl second_l0 second_l1 second_r0 second_r1]
  refine congrArg (· + x4 (ix2 (0 : Fin 1) e)) (Finset.sum_congr rfl fun h _ => ?_)
  rw [truncf_apply, maximumf_apply, addf_apply, broadcastTo_1b_ab_apply,
    DotInner.matmul_zero_apply dot_S1024x4096_S4096x256_S1024x256_1_0_0_1_n_n rfl rfl first_l0 first_l1 first_r0 first_r1]
  rfl

end Cert.KernelIdeal.Body

end
-- ==== Proof.Arrays.lean ====
/-
  The arrays the kernel's region finds, entry by entry.

  Before the call the host lays the arguments out for the kernel: the activations x [4, 4096, 4096] are flattened to token
  rows [16384, 4096]; each weight matrix is transposed to input-major and narrowed to bfloat16 (no change on the extended
  reals); the first bias becomes a row [1, 256]; the two second-layer biases are added and become a row [1, 64]. Each of
  these arrays is written out here as that operation of the launch contents, and the two bias rows and the two weight
  matrices are read at an entry.
-/
import proofs.«131839_g21182778703903_cont_8to1_173_26_alg».proof.Proof.Gen.KernelIdeal.Frame
import proofs.«131839_g21182778703903_cont_8to1_173_26_alg».proof.Proof.Spec
import Idealize.ShloMosaic.Lib.StableHlo.Run
import Idealize.ShloMosaic.Lib.ValueLayout
import Idealize.ShloMosaic.Lib.Pipeline.Value

noncomputable section

namespace Cert.KernelIdeal.Arrays

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The token rows: the activations flattened. -/
theorem tokens (c : Dev nD) :
    (V m c main_v0 : S16384x4096.Idx → EReal)
      = shapeCast S16384x4096 (m ((c : Thread nD τ).loc main_arg0)) shapeCasts_S4x4096x4096_S16384x4096 := by
  show StableHlo.after hostOps0 (fun b => m (c, b)) (Proc.devRef .tc main_v0) = _
  after_results; rfl

/-- The first layer's weights: W1 transposed (and narrowed, which is the identity here). -/
theorem weights1 (c : Dev nD) :
    (V m c main_v2 : S4096x256.Idx → EReal)
      = transpose S4096x256 [1, 0] (m ((c : Thread nD τ).loc main_arg1)) transposes_S256x4096_S4096x256_1_0 := by
  show StableHlo.after hostOps0 (fun b => m (c, b)) (Proc.devRef .tc main_v2) = _
  after_results; rfl

/-- The second layer's weights: W2 transposed (and narrowed). -/
theorem weights2 (c : Dev nD) :
    (V m c main_v4 : S256x64.Idx → EReal)
      = transpose S256x64 [1, 0] (m ((c : Thread nD τ).loc main_arg3)) transposes_S64x256_S256x64_1_0 := by
  show StableHlo.after hostOps0 (fun b => m (c, b)) (Proc.devRef .tc main_v4) = _
  after_results; rfl

/-- The first bias as a row. -/
theorem bias1 (c : Dev nD) :
    (V m c main_v5 : S1x256.Idx → EReal)
      = shapeCast S1x256 (m ((c : Thread nD τ).loc main_arg2)) shapeCasts_S256_S1x256 := by
  show StableHlo.after hostOps0 (fun b => m (c, b)) (Proc.devRef .tc main_v5) = _
  after_results; rfl

/-- The two second-layer biases added, as a row. -/
theorem bias2 (c : Dev nD) :
    (V m c main_v7 : S1x64.Idx → EReal)
      = shapeCast S1x64 (addf (F := Ideal) (s := S64) (φ := .f32) (m ((c : Thread nD τ).loc main_arg4)) (m ((c : Thread nD τ).loc main_arg5))) shapeCasts_S64_S1x64 := by
  show StableHlo.after hostOps0 (fun b => m (c, b)) (Proc.devRef .tc main_v7) = _
  after_results; rfl

/-- The first bias row at hidden unit h is the bias of h. -/
theorem bias1_apply (c : Dev nD) (h : Fin 256) :
    (V m c main_v5 : S1x256.Idx → EReal) (ix2 (0 : Fin 1) h) = (m ((c : Thread nD τ).loc main_arg2) : S256.Idx → EReal) (ix1 h) := by
  rw [bias1]
  exact shapeCast_a_1a_apply _ shapeCasts_S256_S1x256 (0 : Fin 1) h

/-- The second bias row at expert e is the sum of the two biases of e. -/
theorem bias2_apply (c : Dev nD) (e : Fin 64) :
    (V m c main_v7 : S1x64.Idx → EReal) (ix2 (0 : Fin 1) e)
      = Cert.Router.biasSum (m ((c : Thread nD τ).loc main_arg4)) (m ((c : Thread nD τ).loc main_arg5)) e := by
  rw [bias2]
  exact shapeCast_a_1a_apply _ shapeCasts_S64_S1x64 (0 : Fin 1) e

end Cert.KernelIdeal.Arrays

end
-- ==== Proof.KernelLogits.lean ====
/-
  The kernel's result array is the specification's logits.

  The grid has 16 points. Point t is handed token rows 1024·t … 1024·t + 1023 of the flattened activations and, at every
  point, the whole of both weight matrices and both bias rows; it writes back rows 1024·t … 1024·t + 1023 of the [16384, 64]
  result. Entry (p, e) of what it writes is the body's stored value there, which — the blocks read where they lie in
  their arrays — is the logit of token row 1024·t + p for expert e. The 16 blocks tile the result, so after the run the
  whole array holds the logits; the host's last reshape then lays them out as [4, 4096, 64].
-/
import proofs.«131839_g21182778703903_cont_8to1_173_26_alg».proof.Proof.Gen.KernelIdeal.Frame
import proofs.«131839_g21182778703903_cont_8to1_173_26_alg».proof.Proof.Spec
import proofs.«131839_g21182778703903_cont_8to1_173_26_alg».proof.Proof.Body
import proofs.«131839_g21182778703903_cont_8to1_173_26_alg».proof.Proof.Arrays
import Idealize.ShloMosaic.Lib.StableHlo.Run

set_option maxRecDepth 16384

noncomputable section

open scoped BigOperators

namespace Cert.KernelIdeal.Logits

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- Which block each window is on at point t: the token rows and the result move with t along their first axis, the weights
    and bias rows stay on their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is a row of the array. -/
theorem row_lt (t : Fin cfg0.N) (p : Fin 1024) : t.val * 1024 + p.val < 16384 := by
  have ht : t.val < 16 := lt_of_lt_of_eq t.isLt N_0
  have hp := p.isLt
  omega

/-- The logits of the arrays as the region finds them. -/
abbrev found (c : Dev nD) : S16384x64.Idx → EReal :=
  Cert.Router.logits (V m c main_v0) (V m c main_v2) (m ((c : Thread nD τ).loc main_arg2)) (V m c main_v4)
    (m ((c : Thread nD τ).loc main_arg4)) (m ((c : Thread nD τ).loc main_arg5))

/-! ## The blocks, read where they lie in their arrays -/

/-- Point t's block of token rows: row p of the block is row 1024·t + p of the array. -/
theorem rows_at (c : Dev nD) (t : Fin cfg0.N) (p : Fin 1024) (j : Fin 4096) :
    iblk m c 0 t (ix2 p j) = V m c main_v0 (ix2 (⟨t.val * 1024 + p.val, row_lt t p⟩ : Fin 16384) j) := by
  obtain ⟨e0, e1, -⟩ := block_index t
  have he : ((cfg0.win 0).blk t).view.emb (ix2 p j) = ix2 (⟨t.val * 1024 + p.val, row_lt t p⟩ : Fin 16384) j := by
    funext ax; apply Fin.ext
    match ax with
    | ⟨0, _⟩ => show win0_0.index t (0 : Fin 2) * 1024 + 1 * p.val = t.val * 1024 + p.val; omega
    | ⟨1, _⟩ => show win0_0.index t (1 : Fin 2) * 4096 + 1 * j.val = j.val; omega
  show V m c main_v0 (((cfg0.win 0).blk t).view.emb (ix2 p j)) = _
  rw [he]

/-- The first layer's weights are handed over whole. -/
theorem weights1_at (c : Dev nD) (t : Fin cfg0.N) (j : Fin 4096) (h : Fin 256) :
    iblk m c 1 t (ix2 j h) = V m c main_v2 (ix2 j h) := by
  obtain ⟨-, -, w1a, w1b, w2a, w2b, w3a, w3b, w4a, w4b, -, -⟩ := block_index t
  have he : ((cfg0.win 1).blk t).view.emb (ix2 j h) = ix2 j h := by
    funext ax; apply Fin.ext
    match ax with
    | ⟨0, _⟩ => show win0_1.index t (0 : Fin 2) * 4096 + 1 * j.val = j.val; omega
    | ⟨1, _⟩ => show win0_1.index t (1 : Fin 2) * 256 + 1 * h.val = h.val; omega
  show V m c main_v2 (((cfg0.win 1).blk t).view.emb (ix2 j h)) = _
  rw [he]

/-- The first bias row is handed over whole. -/
theorem bias1_at (c : Dev nD) (t : Fin cfg0.N) (u : Fin 1) (h : Fin 256) :
    iblk m c 2 t (ix2 u h) = V m c main_v5 (ix2 u h) := by
  obtain ⟨-, -, w1a, w1b, w2a, w2b, w3a, w3b, w4a, w4b, -, -⟩ := block_index t
  have he : ((cfg0.win 2).blk t).view.emb (ix2 u h) = ix2 u h := by
    funext ax; apply Fin.ext
    match ax with
    | ⟨0, _⟩ => show win0_2.index t (0 : Fin 2) * 1 + 1 * u.val = u.val; omega
    | ⟨1, _⟩ => show win0_2.index t (1 : Fin 2) * 256 + 1 * h.val = h.val; omega
  show V m c main_v5 (((cfg0.win 2).blk t).view.emb (ix2 u h)) = _
  rw [he]

/-- The second layer's weights are handed over whole. -/
theorem weights2_at (c : Dev nD) (t : Fin cfg0.N) (h : Fin 256) (e : Fin 64) :
    iblk m c 3 t (ix2 h e) = V m c main_v4 (ix2 h e) := by
  obtain ⟨-, -, w1a, w1b, w2a, w2b, w3a, w3b, w4a, w4b, -, -⟩ := block_index t
  have he : ((cfg0.win 3).blk t).view.emb (ix2 h e) = ix2 h e := by
    funext ax; apply Fin.ext
    match ax with
    | ⟨0, _⟩ => show win0_3.index t (0 : Fin 2) * 256 + 1 * h.val = h.val; omega
    | ⟨1, _⟩ => show win0_3.index t (1 : Fin 2) * 64 + 1 * e.val = e.val; omega
  show V m c main_v4 (((cfg0.win 3).blk t).view.emb (ix2 h e)) = _
  rw [he]

/-- The second bias row is handed over whole. -/
theorem bias2_at (c : Dev nD) (t : Fin cfg0.N) (u : Fin 1) (e : Fin 64) :
    iblk m c 4 t (ix2 u e) = V m c main_v7 (ix2 u e) := by
  obtain ⟨-, -, w1a, w1b, w2a, w2b, w3a, w3b, w4a, w4b, -, -⟩ := block_index t
  have he : ((cfg0.win 4).blk t).view.emb (ix2 u e) = ix2 u e := by
    funext ax; apply Fin.ext
    match ax with
    | ⟨0, _⟩ => show win0_4.index t (0 : Fin 2) * 1 + 1 * u.val = u.val; omega
    | ⟨1, _⟩ => show win0_4.index t (1 : Fin 2) * 64 + 1 * e.val = e.val; omega
  show V m c main_v7 (((cfg0.win 4).blk t).view.emb (ix2 u e)) = _
  rw [he]

/-! ## What a point writes back -/

/-- Entry (p, e) of what the body stores at point t is the logit of token row 1024·t + p for expert e. -/
theorem block_entry (c : Dev nD) (t : Fin cfg0.N) (p : Fin 1024) (e : Fin 64) :
    k0_pay1 (F := Ideal) (iblk m c 0 t) (iblk m c 1 t) (iblk m c 2 t) (iblk m c 3 t) (iblk m c 4 t) (ix2 p e)
      = Cert.Router.logit (V m c main_v0) (V m c main_v2) (m ((c : Thread nD τ).loc main_arg2)) (V m c main_v4)
          (m ((c : Thread nD τ).loc main_arg4)) (m ((c : Thread nD τ).loc main_arg5))
          (⟨t.val * 1024 + p.val, row_lt t p⟩ : Fin 16384) e := by
  refine (Body.payload_apply (iblk m c 0 t) (iblk m c 1 t) (iblk m c 2 t) (iblk m c 3 t) (iblk m c 4 t) p e).trans ?_
  unfold Cert.Router.logit Cert.Router.hidden
  simp only [rows_at m c t, weights1_at m c t, bias1_at m c t, weights2_at m c t, bias2_at m c t,
    Arrays.bias1_apply m c, Arrays.bias2_apply m c]

/-- WHAT POINT t WRITES BACK is block t of the logits: the body's one store covers its whole buffer, and each entry of
    it is the logit of the array row the block's row lies on. -/
theorem flushed_eq (c : Dev nD) (t : Fin cfg0.N) :
    (dats m 0 c).flushed 5 t = ((cfg0.win 5).blk t).view.read (Elt Ideal) (found m c) := by
  show (cfg0.win 5).cut (grid0.coords t) ((dats m 0 c).after 5 t) = _
  rw [after0_5]
  unfold out0_5
  rw [View.canon_unit_zero zero_offsets]
  simp only [View.ld_unit_zero (S := S1024x4096) zero_offsets, View.ld_unit_zero (S := S4096x256) zero_offsets,
    View.ld_unit_zero (S := S1x256) zero_offsets, View.ld_unit_zero (S := S256x64) zero_offsets,
    View.ld_unit_zero (S := S1x64) zero_offsets]
  obtain ⟨-, -, -, -, -, -, -, -, -, -, o0, o1⟩ := block_index t
  funext y
  show k0_pay1 (F := Ideal) (iblk m c 0 t) (iblk m c 1 t) (iblk m c 2 t) (iblk m c 3 t) (iblk m c 4 t) y
    = found m c (((cfg0.win 5).blk t).view.emb y)
  have hy : (y : S1024x64.Idx) = ix2 (y 0) (y 1) := eq_ix2 y
  refine ((congrArg (k0_pay1 (F := Ideal) (iblk m c 0 t) (iblk m c 1 t) (iblk m c 2 t) (iblk m c 3 t) (iblk m c 4 t)) hy).trans
    (block_entry m c t (y 0) (y 1))).trans ?_
  have he : ((cfg0.win 5).blk t).view.emb y = ix2 (⟨t.val * 1024 + (y 0).val, row_lt t (y 0)⟩ : Fin 16384) (y 1) := by
    funext ax; apply Fin.ext
    match ax with
    | ⟨0, _⟩ => show win0_5.index t (0 : Fin 2) * 1024 + 1 * (y 0).val = t.val * 1024 + (y 0).val; omega
    | ⟨1, _⟩ => show win0_5.index t (1 : Fin 2) * 64 + 1 * (y 1).val = (y 1).val; omega
  rw [he]
  rfl

/-! ## The 16 blocks tile the result -/

/-- An entry of the result lies in point t's block iff each coordinate is in the block's range on its axis. -/
theorem mem_block (t : Fin cfg0.N) (i : S16384x64.Idx) :
    i ∈ ((cfg0.win 5).blk t).view.set ↔ ∀ a : Fin 2, win0_5.index t a * S1024x64.size a ≤ (i a).val
      ∧ (i a).val < win0_5.index t a * S1024x64.size a + S1024x64.size a := by
  show i ∈ ((View.whole main_v8).slice (win0_5.rect t)).set ↔ _
  rw [View.set_slice_whole, Rect.mem_set_unit]
  exact Iff.rfl

/-- Row r of the result is written back by point r / 1024. -/
theorem covered (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, -, -, -, -, o0, o1⟩ := block_index t
  refine ⟨t, flush0_5 t, ?_⟩
  rw [mem_block]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 64 ≤ (i 1).val ∧ (i 1).val < win0_5.index t (1 : Fin 2) * 64 + 64
    omega

/-- THE RESULT ARRAY after the region: the logits, whole. -/
theorem final (c : Dev nD) : (dats m 0 c).arrAt 5 cfg0.N = found m c :=
  (dats m 0 c).arrAt_eq_of_cover 5 (found m c) (fun t _ => flushed_eq m c t) covered

/-! ## The host's last line, and the run -/

/-- After the host's reshape the program's result is the logits laid out as [4, 4096, 64]. -/
theorem tail_eq (c : Dev nD) :
    Pipeline.afterTail₀ cfgs (dats m) 0 (V0 m) [hostOps1] c main_v9
      = shapeCast S4x4096x64 (found m c) shapeCasts_S16384x64_S4x4096x64 := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = found m c :=
    (Pipeline.withArrays_arr spec0 launch0.win.arr_inj c _ _ 5).trans (final m c)
  rw [hw]
  rfl

/-- The program's result as one function of its six arguments: flatten the activations, transpose the weights, take
    the logits, lay them out as [4, 4096, 64]. -/
def result (x0 : S4x4096x4096.Idx → EReal) (x1 : S256x4096.Idx → EReal) (x2 : S256.Idx → EReal)
    (x3 : S64x256.Idx → EReal) (x4 x5 : S64.Idx → EReal) : S4x4096x64.Idx → EReal :=
  shapeCast S4x4096x64
    (Cert.Router.logits (shapeCast S16384x4096 x0 shapeCasts_S4x4096x4096_S16384x4096)
      (transpose S4096x256 [1, 0] x1 transposes_S256x4096_S4096x256_1_0) x2
      (transpose S256x64 [1, 0] x3 transposes_S64x256_S256x64_1_0) x4 x5)
    shapeCasts_S16384x64_S4x4096x64

/-- The logits of the arrays as the region finds them are the logits of the launch contents laid out by the host. -/
theorem found_eq (c : Dev nD) :
    found m c = Cert.Router.logits
      (shapeCast S16384x4096 (m ((c : Thread nD τ).loc main_arg0)) shapeCasts_S4x4096x4096_S16384x4096)
      (transpose S4096x256 [1, 0] (m ((c : Thread nD τ).loc main_arg1)) transposes_S256x4096_S4096x256_1_0)
      (m ((c : Thread nD τ).loc main_arg2))
      (transpose S256x64 [1, 0] (m ((c : Thread nD τ).loc main_arg3)) transposes_S64x256_S256x64_1_0)
      (m ((c : Thread nD τ).loc main_arg4)) (m ((c : Thread nD τ).loc main_arg5)) := by
  show Cert.Router.logits (V m c main_v0) (V m c main_v2) _ (V m c main_v4) _ _ = _
  rw [Arrays.tokens m c, Arrays.weights1 m c, Arrays.weights2 m c]

/-- THE RUN: every weakly fair execution terminates with the result at `result` of the launch contents and the
    arguments unchanged. -/
theorem run : θ_run defs (onTc (τ := τ) (main (F := Ideal))) ⟨m, fun _ => 0, ρ⟩ (fun r => ∀ c : Dev nD,
      r.2.mem ((c.tc : Thread nD τ).loc main_v9)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v9 (Pipeline.mem_restRefs_of main_v9 (by decide) (by decide))).trans (tail_eq m c)).trans
        (by rw [found_eq]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Logits

end
-- ==== Proof.RefLogits.lean ====
/-
  The reference computes the specification's logits.

  Read one operation at a time, entry (r, e) of the reference's [16384, 64] array before its last reshape is

      ((Σ_h max (Σ_j X[r, j] · A[j, h] + b1[h]) 0 · B[h, e]) + b2[e]) + eb[e]

  with X the flattened activations and A, B the transposed weights: the two products are plain sums over the contracted
  axis on the extended reals, and each bias is broadcast first to a row and then over the token rows, which reads the bias
  of the column. The reference adds the two second-layer biases one after the other, the specification adds their sum:
  the same by associativity of + on the extended reals.
-/
import proofs.«131839_g21182778703903_cont_8to1_173_26_alg».proof.Proof.Gen.ReferenceIdeal.Read
import proofs.«131839_g21182778703903_cont_8to1_173_26_alg».proof.Proof.Spec

noncomputable section

open scoped BigOperators

namespace Cert.ReferenceIdeal.RefLogits

open Cert.ReferenceIdeal Cert.ReferenceIdeal.Gen Cert.ReferenceIdeal.Read Idealize.ShloMosaic Idealize.ShloMosaic.ValueIdx

/-- One rectified hidden unit as the reference computes it. -/
theorem hidden_eq (x0 : S4x4096x4096.Idx → EReal) (x1 : S256x4096.Idx → EReal) (x2 : S256.Idx → EReal)
    (r : Fin 16384) (h : Fin 256) :
    val_main_v6 (F := Ideal) x0 x1 x2 (ix2 r h)
      = Cert.Router.hidden (val_main_v0 (F := Ideal) x0) (val_main_v1 (F := Ideal) x1) x2 r h := by
  have il : ∀ k : Fin 4096, lidx_main_v2 (ix2 r h) k = ix2 r k := fun k =>
    funext fun a => Fin.ext (by match a with | ⟨0, _⟩ => rfl | ⟨1, _⟩ => rfl)
  have ir : ∀ k : Fin 4096, ridx_main_v2 (ix2 r h) k = ix2 k h := fun k =>
    funext fun a => Fin.ext (by match a with | ⟨0, _⟩ => rfl | ⟨1, _⟩ => rfl)
  have ib : idx_main_v3 (idx_main_v4 (ix2 r h)) = ix1 h :=
    funext fun a => Fin.ext (by match a with | ⟨0, _⟩ => rfl)
  unfold Cert.Router.hidden
  rw [val_main_v6_apply, val_main_v5_apply, val_main_call0_v0_apply, val_main_call0_cst_apply, val_main_v4_apply,
    val_main_v3_apply, val_main_v2_apply]
  simp only [il, ir, ib, Ideal.maximumf_def, Ideal.addf_def, Ideal.ofBits_def]

/-- The reference's array before its last reshape is the specification's, of its own flattened activations and transposed
    weights. -/
theorem logits_eq (x0 : S4x4096x4096.Idx → EReal) (x1 : S256x4096.Idx → EReal) (x2 : S256.Idx → EReal)
    (x3 : S64x256.Idx → EReal) (x4 x5 : S64.Idx → EReal) :
    val_main_v14 (F := Ideal) x0 x1 x2 x3 x4 x5
      = Cert.Router.logits (val_main_v0 (F := Ideal) x0) (val_main_v1 (F := Ideal) x1) x2 (val_main_v7 (F := Ideal) x3) x4 x5 := by
  funext i
  obtain ⟨r, e, rfl⟩ : ∃ (r : Fin 16384) (e : Fin 64), i = ix2 r e := ⟨i 0, i 1, eq_ix2 i⟩
  have il : ∀ k : Fin 256, lidx_main_v8 (ix2 r e) k = ix2 r k := fun k =>
    funext fun a => Fin.ext (by match a with | ⟨0, _⟩ => rfl | ⟨1, _⟩ => rfl)
  have ir : ∀ k : Fin 256, ridx_main_v8 (ix2 r e) k = ix2 k e := fun k =>
    funext fun a => Fin.ext (by match a with | ⟨0, _⟩ => rfl | ⟨1, _⟩ => rfl)
  have i4 : idx_main_v9 (idx_main_v10 (ix2 r e)) = ix1 e :=
    funext fun a => Fin.ext (by match a with | ⟨0, _⟩ => rfl)
  have i5 : idx_main_v12 (idx_main_v13 (ix2 r e)) = ix1 e :=
    funext fun a => Fin.ext (by match a with | ⟨0, _⟩ => rfl)
  rw [Cert.Router.logits_ix2]
  unfold Cert.Router.logit Cert.Router.biasSum
  rw [val_main_v14_apply, val_main_v11_apply, val_main_v13_apply, val_main_v12_apply, val_main_v10_apply,
    val_main_v9_apply, val_main_v8_apply]
  simp only [il, ir, i4, i5, Ideal.addf_def, hidden_eq]
  exact add_assoc _ _ _

end Cert.ReferenceIdeal.RefLogits

end
-- ==== Proof.lean ====
/-
  The certificate of the fused expert-router kernel against its jnp reference.

  Both programs compute, for each of the 16384 tokens of x [4, 4096, 4096] and each of the 64 experts,

      logit = Σ_h max (Σ_j x[token, j] · W1[h, j] + b1[h]) 0 · W2[expert, h] + b2[expert] + eb[expert].

  The kernel runs the two layers in one pipelined call over 16 blocks of 1024 tokens, on weights the host has transposed and
  narrowed to bfloat16, with the two second-layer biases added beforehand; the reference runs the layers as two host products
  and adds the biases one after the other. On the extended reals the narrowings are the identity and both products are plain
  sums, so the two results differ only in how b2 + eb is grouped with the rest of the sum: equal by associativity of +, which
  holds at every extended real (the precondition is not needed for the values).

  The three frames are the generated ones (the reference's is its generated run with the result dropped); the kernel's
  idealization rewrote no operation, so there is nothing to preserve; the value claim joins the kernel's run (KernelLogits)
  and the reference's generated run read one operation at a time (RefLogits) at one function of the six arguments.
-/
import proofs.«131839_g21182778703903_cont_8to1_173_26_alg».proof.Defs
import proofs.«131839_g21182778703903_cont_8to1_173_26_alg».proof.Proof.Gen.Kernel
import proofs.«131839_g21182778703903_cont_8to1_173_26_alg».proof.Proof.Gen.Kernel.Skeleton
import proofs.«131839_g21182778703903_cont_8to1_173_26_alg».proof.Proof.Gen.Kernel.Launch
import proofs.«131839_g21182778703903_cont_8to1_173_26_alg».proof.Proof.Gen.Kernel.Points
import proofs.«131839_g21182778703903_cont_8to1_173_26_alg».proof.Proof.Gen.Kernel.Frame
import proofs.«131839_g21182778703903_cont_8to1_173_26_alg».proof.Proof.Gen.KernelIdeal
import proofs.«131839_g21182778703903_cont_8to1_173_26_alg».proof.Proof.Gen.KernelIdeal.Skeleton
import proofs.«131839_g21182778703903_cont_8to1_173_26_alg».proof.Proof.Gen.KernelIdeal.Launch
import proofs.«131839_g21182778703903_cont_8to1_173_26_alg».proof.Proof.Gen.KernelIdeal.Points
import proofs.«131839_g21182778703903_cont_8to1_173_26_alg».proof.Proof.Gen.KernelIdeal.Frame
import proofs.«131839_g21182778703903_cont_8to1_173_26_alg».proof.Proof.Gen.ReferenceIdeal
import proofs.«131839_g21182778703903_cont_8to1_173_26_alg».proof.Proof.Gen.Pre_finite_inputs
import proofs.«131839_g21182778703903_cont_8to1_173_26_alg».proof.Proof.Gen.ReferenceIdeal.Run
import proofs.«131839_g21182778703903_cont_8to1_173_26_alg».proof.Proof.Gen.ReferenceIdeal.Read
import proofs.«131839_g21182778703903_cont_8to1_173_26_alg».proof.Proof.KernelLogits
import proofs.«131839_g21182778703903_cont_8to1_173_26_alg».proof.Proof.RefLogits
import Idealize.ShloMosaic.Adequacy
import Idealize.ShloMosaic.Init

noncomputable section

namespace Cert.Proof

open Idealize.ShloMosaic Idealize.SL.Sem

/-- The reference's result term is the kernel's function of the six arguments: its array before the last reshape is the
    logits of its own flattened activations and transposed weights, which are the kernel's, and the last reshape is the same. -/
theorem reference_result (x0 : Cert.ReferenceIdeal.S4x4096x4096.Idx → EReal) (x1 : Cert.ReferenceIdeal.S256x4096.Idx → EReal)
    (x2 : Cert.ReferenceIdeal.S256.Idx → EReal) (x3 : Cert.ReferenceIdeal.S64x256.Idx → EReal)
    (x4 x5 : Cert.ReferenceIdeal.S64.Idx → EReal) :
    Cert.ReferenceIdeal.Read.val_main_v15 (F := Ideal) x0 x1 x2 x3 x4 x5 = Cert.KernelIdeal.Logits.result x0 x1 x2 x3 x4 x5 := by
  unfold Cert.ReferenceIdeal.Read.val_main_v15
  rw [Cert.ReferenceIdeal.RefLogits.logits_eq]
  rfl

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result at the same function of them. -/
theorem algebraic : Cert.algebraic_KernelIdeal_ReferenceIdeal := by
  intro m ρ m' ρ' _ hagree
  refine ⟨_, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v15_eq _ _ _ _ _ _).trans (reference_result _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
